-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : IVec S32x2048 32) (main_arg1 : FVec F S50000x100 .f32) (main_arg2 : FVec F S100x100 .f32) (main_arg3 : FVec F S100 .f32) : IVec S_ 1 :=
  let main_v0 : FVec F S50000x100 .f32 := Host.absf main_arg1
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x100 .f32 := Host.absf main_arg2
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩
abbrev S32x2048x1 : Shape := ⟨3, ![32, 2048, 1]⟩
abbrev S32x2048x100 : Shape := ⟨3, ![32, 2048, 100]⟩
abbrev S1x100 : Shape := ⟨2, ![1, 100]⟩
abbrev S2x2048x100 : Shape := ⟨3, ![2, 2048, 100]⟩
abbrev S1x2048x100 : Shape := ⟨3, ![1, 2048, 100]⟩
abbrev S2048x100 : Shape := ⟨2, ![2048, 100]⟩

abbrev nBuf : Space → Nat
  | .hbm => 17
  | .vmem => 6
  | .smem => 0
  | _ => 0

abbrev bufTy : (tb : Table) → Fin (tcTables nBuf tb) → BufTy
  | .hbm, ⟨0, _⟩ => ⟨S32x2048, .i32⟩
  | .hbm, ⟨1, _⟩ => ⟨S50000x100, .f32⟩
  | .hbm, ⟨2, _⟩ => ⟨S100x100, .f32⟩
  | .hbm, ⟨3, _⟩ => ⟨S100, .f32⟩
  | .hbm, ⟨4, _⟩ => ⟨S50000x100, .bf16⟩
  | .hbm, ⟨5, _⟩ => ⟨S_, .i32⟩
  | .hbm, ⟨6, _⟩ => ⟨S32x2048, .i32⟩
  | .hbm, ⟨7, _⟩ => ⟨S32x2048, .i1⟩
  | .hbm, ⟨8, _⟩ => ⟨S_, .i32⟩
  | .hbm, ⟨9, _⟩ => ⟨S32x2048, .i32⟩
  | .hbm, ⟨10, _⟩ => ⟨S32x2048, .i32⟩
  | .hbm, ⟨11, _⟩ => ⟨S32x2048, .i32⟩
  | .hbm, ⟨12, _⟩ => ⟨S32x2048x1, .i32⟩
  | .hbm, ⟨13, _⟩ => ⟨S32x2048x100, .bf16⟩
  | .hbm, ⟨14, _⟩ => ⟨S100x100, .bf16⟩
  | .hbm, ⟨15, _⟩ => ⟨S1x100, .f32⟩
  | .hbm, ⟨16, _⟩ => ⟨S32x2048x100, .f32⟩
  | .local _ .vmem, ⟨0, _⟩ => ⟨S2x2048x100, .bf16⟩
  | .local _ .vmem, ⟨1, _⟩ => ⟨S2x2048x100, .bf16⟩
  | .local _ .vmem, ⟨2, _⟩ => ⟨S100x100, .bf16⟩
  | .local _ .vmem, ⟨3, _⟩ => ⟨S1x100, .f32⟩
  | .local _ .vmem, ⟨4, _⟩ => ⟨S2x2048x100, .f32⟩
  | .local _ .vmem, ⟨5, _⟩ => ⟨S2x2048x100, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x2048x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  shapeCasts_S100_S1x100 : S100.ShapeCasts S1x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S2x2048x100_S1x2048x100_0_0_0 : ∀ a, (![0, 0, 0] : Fin 3 → Nat) a + S1x2048x100.size a ≤ S2x2048x100.size a
  h_S1x2048x100 : 0 < S1x2048x100.numel
  shapeCasts_S1x2048x100_S2048x100 : S1x2048x100.ShapeCasts S2048x100
  broadcasts_S1x100_S2048x100 : S1x100.Broadcasts S2048x100
  shapeCasts_S2048x100_S1x2048x100 : S2048x100.ShapeCasts S1x2048x100
  inb_S2x2048x100_S1x2048x100_1_0_0 : ∀ a, (![1, 0, 0] : Fin 3 → Nat) a + S1x2048x100.size a ≤ S2x2048x100.size a
  gather_S50000x100_S32x2048x1_S32x2048x100_2_0_n_n_0_2_1100_wf : GatherDims.WF S50000x100 S32x2048x1 S32x2048x100 [2] [0] [] [0] [] 2 ![1, 100]
  dot_S2048x100_S100x100_S2048x100_1_1_0_0_n_n_wf : DotDims.WF S2048x100 S100x100 S2048x100 [1] [1] [0] [0] [] []
  dot_S2048x100_S2048x100_S100x100_0_0_1_1_n_n_wf : DotDims.WF S2048x100 S2048x100 S100x100 [0] [0] [1] [1] [] []
  dot_S2048x100_S100x100_S2048x100_1_0_0_1_n_n_wf : DotDims.WF S2048x100 S100x100 S2048x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x100.size a ≤ S32x2048x100.size a
  hwx0_0 : ∀ i : grid0.Coords, EltTy.bits .bf16 = 32 ∨ (Rect.block (s := S32x2048x100) S2x2048x100.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .bf16 = 32 ∨ (Rect.block (s := S100x100) S100x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x100.size a ≤ S32x2048x100.size a
  hwx0_3 : ∀ i : grid0.Coords, EltTy.bits .f32 = 32 ∨ (Rect.block (s := S32x2048x100) S2x2048x100.size (cc0_transform_3 i) (hinb0_3 i)).WholeWords (EltTy.packing .f32)

variable [Facts₀]

def gather_S50000x100_S32x2048x1_S32x2048x100_2_0_n_n_0_2_1100 : GatherDims S50000x100 S32x2048x1 S32x2048x100 where
  offsetDims := [2]
  collapsedSliceDims := [0]
  operandBatchingDims := []
  startIndicesBatchingDims := []
  startIndexMap := [0]
  indexVectorDim := 2
  sliceSizes := ![1, 100]
  wf := gather_S50000x100_S32x2048x1_S32x2048x100_2_0_n_n_0_2_1100_wf
def dot_S2048x100_S100x100_S2048x100_1_1_0_0_n_n : DotDims S2048x100 S100x100 S2048x100 where
  lhsContracting := [1]
  rhsContracting := [1]
  lhsNonContracting := [0]
  rhsNonContracting := [0]
  lhsBatch := []
  rhsBatch := []
  wf := dot_S2048x100_S100x100_S2048x100_1_1_0_0_n_n_wf
def dot_S2048x100_S2048x100_S100x100_0_0_1_1_n_n : DotDims S2048x100 S2048x100 S100x100 where
  lhsContracting := [0]
  rhsContracting := [0]
  lhsNonContracting := [1]
  rhsNonContracting := [1]
  lhsBatch := []
  rhsBatch := []
  wf := dot_S2048x100_S2048x100_S100x100_0_0_1_1_n_n_wf
def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf

abbrev win0_0 : Pipeline.Window sig grid0 :=
  Pipeline.Window.ofSpec (Memref.whole main_v7) S2x2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2x2048x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048 : Shape := ⟨2, ![32, 2048]⟩
abbrev S50000x100 : Shape := ⟨2, ![50000, 100]⟩
abbrev S100x100 : Shape := ⟨2, ![100, 100]⟩
abbrev S100 : Shape := ⟨1, ![100]⟩
abbrev S_ : Shape := ⟨0, ![]⟩
abbrev S32x2048x1 : Shape := ⟨3, ![32, 2048, 1]⟩
abbrev S32x2048x100 : Shape := ⟨3, ![32, 2048, 100]⟩
abbrev S1x1x100 : Shape := ⟨3, ![1, 1, 100]⟩
abbrev S32x2048x2048 : Shape := ⟨3, ![32, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S50000x100, .f32⟩
  | .hbm, ⟨2, _⟩ => ⟨S100x100, .f32⟩
  | .hbm, ⟨3, _⟩ => ⟨S100, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x100, .f32⟩
  | .hbm, ⟨13, _⟩ => ⟨S32x2048x100, .f32⟩
  | .hbm, ⟨14, _⟩ => ⟨S1x1x100, .f32⟩
  | .hbm, ⟨15, _⟩ => ⟨S32x2048x100, .f32⟩
  | .hbm, ⟨16, _⟩ => ⟨S32x2048x100, .f32⟩
  | .hbm, ⟨17, _⟩ => ⟨S32x2048x2048, .f32⟩
  | .hbm, ⟨18, _⟩ => ⟨S32x2048x100, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S100_S1x1x100_2 : S100.BroadcastsInDim S1x1x100 (![2] : Fin 1 → Fin S1x1x100.rank)
  bcast_S1x1x100_S32x2048x100_0_1_2 : S1x1x100.BroadcastsInDim S32x2048x100 (![0, 1, 2] : Fin 3 → Fin S32x2048x100.rank)
  gather_S50000x100_S32x2048x1_S32x2048x100_2_0_n_n_0_2_1100_wf : GatherDims.WF S50000x100 S32x2048x1 S32x2048x100 [2] [0] [] [0] [] 2 ![1, 100]
  dot_S32x2048x100_S100x100_S32x2048x100_2_1_01_0_n_n_wf : DotDims.WF S32x2048x100 S100x100 S32x2048x100 [2] [1] [0, 1] [0] [] []
  dot_S32x2048x100_S32x2048x100_S32x2048x2048_2_2_1_1_0_0_wf : DotDims.WF S32x2048x100 S32x2048x100 S32x2048x2048 [2] [2] [1] [1] [0] [0]
  dot_S32x2048x2048_S32x2048x100_S32x2048x100_2_1_1_2_0_0_wf : DotDims.WF S32x2048x2048 S32x2048x100 S32x2048x100 [2] [1] [1] [2] [0] [0]

variable [Facts₀]

def gather_S50000x100_S32x2048x1_S32x2048x100_2_0_n_n_0_2_1100 : GatherDims S50000x100 S32x2048x1 S32x2048x100 where
  offsetDims := [2]
  collapsedSliceDims := [0]
  operandBatchingDims := []
  startIndicesBatchingDims := []
  startIndexMap := [0]
  indexVectorDim := 2
  sliceSizes := ![1, 100]
  wf := gather_S50000x100_S32x2048x1_S32x2048x100_2_0_n_n_0_2_1100_wf
def dot_S32x2048x100_S100x100_S32x2048x100_2_1_01_0_n_n : DotDims S32x2048x100 S100x100 S32x2048x100 where
  lhsContracting := [2]
  rhsContracting := [1]
  lhsNonContracting := [0, 1]
  rhsNonContracting := [0]
  lhsBatch := []
  rhsBatch := []
  wf := dot_S32x2048x100_S100x100_S32x2048x100_2_1_01_0_n_n_wf
def dot_S32x2048x100_S32x2048x100_S32x2048x2048_2_2_1_1_0_0 : DotDims S32x2048x100 S32x2048x100 S32x2048x2048 where
  lhsContracting := [2]
  rhsContracting := [2]
  lhsNonContracting := [1]
  rhsNonContracting := [1]
  lhsBatch := [0]
  rhsBatch := [0]
  wf := dot_S32x2048x100_S32x2048x100_S32x2048x2048_2_2_1_1_0_0_wf
def dot_S32x2048x2048_S32x2048x100_S32x2048x100_2_1_1_2_0_0 : DotDims S32x2048x2048 S32x2048x100 S32x2048x100 where
  lhsContracting := [2]
  rhsContracting := [1]
  lhsNonContracting := [1]
  rhsNonContracting := [2]
  lhsBatch := [0]
  rhsBatch := [0]
  wf := dot_S32x2048x2048_S32x2048x100_S32x2048x100_2_1_1_2_0_0_wf

class Facts : Prop extends Facts₀ where

variable [Facts]
-- ==== Proof.Attention.lean ====
/-
  The mathematics shared by the two programs.

  Per batch, with `H` the [S, D] matrix of gathered embedding rows, `W` the [D, D] weight and `b` the bias,
  the query row of position `n` is  q_d = ∑_k H_{n,k} · W_{d,k} + b_d.  One program forms the scores
  s_j = ∑_d q_d · H_{j,d} and then the output  ∑_j s_j · H_{j,e};  the other forms the Gram matrix
  M_{d,e} = ∑_j H_{j,d} · H_{j,e}  first and then the output  ∑_d q_d · M_{d,e}.  Both are the double sum
  ∑_d ∑_j q_d · H_{j,d} · H_{j,e}: the matrix product is associative. On the extended reals the step that
  moves a factor into a sum needs every entry to be a real number, so the law is stated for entries that
  are coercions of reals.
-/
import Idealize.ShloMosaic.Lib.ValueIdx
import Idealize.ShloMosaic.PureOps.Ideal.Laws

noncomputable section

namespace Cert.Attention

open Idealize.ShloMosaic Idealize.ShloMosaic.ValueIdx

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {S D : ℕ}

/-- The query row of one position: q_d = ∑_k x_k · W_{d,k} + b_d. -/
def query (x : Fin D → EReal) (W : Fin D → Fin D → EReal) (b : Fin D → EReal) (d : Fin D) : EReal :=
  (∑ k : Fin D, x k * W d k) + b d

/-- Scores first: ∑_j (∑_d q_d · H_{j,d}) · H_{j,e}. -/
def viaScores (H : Fin S → Fin D → EReal) (W : Fin D → Fin D → EReal) (b : Fin D → EReal) (n : Fin S) (e : Fin D) : EReal :=
  ∑ j : Fin S, (∑ d : Fin D, query (H n) W b d * H j d) * H j e

/-- Gram matrix first: ∑_d q_d · (∑_j H_{j,d} · H_{j,e}). -/
def viaGram (H : Fin S → Fin D → EReal) (W : Fin D → Fin D → EReal) (b : Fin D → EReal) (n : Fin S) (e : Fin D) : EReal :=
  ∑ d : Fin D, query (H n) W b d * ∑ j : Fin S, H j d * H j e

/-- Associativity of the matrix product, on real entries: the two orders of summation agree. -/
theorem viaGram_eq_viaScores (Hr : Fin S → Fin D → ℝ) (Wr : Fin D → Fin D → ℝ) (br : Fin D → ℝ) (n : Fin S) (e : Fin D) :
    viaGram (fun j d => (Hr j d : EReal)) (fun d k => (Wr d k : EReal)) (fun d => (br d : EReal)) n e
      = viaScores (fun j d => (Hr j d : EReal)) (fun d k => (Wr d k : EReal)) (fun d => (br d : EReal)) n e := by
  unfold viaGram viaScores query
  simp only [← EReal.coe_mul, ← coe_sum, ← EReal.coe_add]
  refine congrArg _ ?_
  simp only [Finset.mul_sum, Finset.sum_mul]
  rw [Finset.sum_comm]
  refine Finset.sum_congr rfl fun j _ => Finset.sum_congr rfl fun d _ => ?_
  ring

/-! ## The same two forms over whole arrays -/

/-- The [B, S, D] result with the scores formed first, from the gathered rows `h`, the weight `W` and the bias `b`. -/
def scoresOut {B : ℕ} (h : (⟨3, ![B, S, D]⟩ : Shape).Idx → EReal) (W : (⟨2, ![D, D]⟩ : Shape).Idx → EReal) (b : Fin D → EReal) :
    (⟨3, ![B, S, D]⟩ : Shape).Idx → EReal :=
  fun i => viaScores (fun j d => h (ix3 (i 0) j d)) (fun d k => W (ix2 d k)) b (i 1) (i 2)

/-- The [B, S, D] result with the Gram matrix formed first. -/
def gramOut {B : ℕ} (h : (⟨3, ![B, S, D]⟩ : Shape).Idx → EReal) (W : (⟨2, ![D, D]⟩ : Shape).Idx → EReal) (b : Fin D → EReal) :
    (⟨3, ![B, S, D]⟩ : Shape).Idx → EReal :=
  fun i => viaGram (fun j d => h (ix3 (i 0) j d)) (fun d k => W (ix2 d k)) b (i 1) (i 2)

/-- On arrays of real entries the two results are one array. -/
theorem gramOut_eq_scoresOut {B : ℕ} (h : (⟨3, ![B, S, D]⟩ : Shape).Idx → EReal) (W : (⟨2, ![D, D]⟩ : Shape).Idx → EReal) (b : Fin D → EReal)
    (hh : ∀ i, ∃ r : ℝ, h i = (r : EReal)) (hW : ∀ i, ∃ r : ℝ, W i = (r : EReal)) (hb : ∀ d, ∃ r : ℝ, b d = (r : EReal)) :
    gramOut h W b = scoresOut h W b := by
  choose hr hhr using hh
  choose Wr hWr using hW
  choose br hbr using hb
  funext i
  unfold gramOut scoresOut
  have e1 : (fun j d => h (ix3 (i 0) j d)) = fun (j : Fin S) (d : Fin D) => ((hr (ix3 (i 0) j d) : ℝ) : EReal) :=
    funext fun j => funext fun d => hhr _
  have e2 : (fun d k => W (ix2 d k)) = fun (d k : Fin D) => ((Wr (ix2 d k) : ℝ) : EReal) :=
    funext fun d => funext fun k => hWr _
  have e3 : b = fun d => ((br d : ℝ) : EReal) := funext hbr
  rw [e1, e2, e3]
  exact viaGram_eq_viaScores _ _ _ _ _

end Cert.Attention

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.KernelSide.lean ====
/-
  One block of the kernel's work, read index by index.

  At a grid point the body holds two batches of gathered rows. For each it forms the query rows
  q = h · Wᵀ + b  (a product contracting the feature axis of both operands, plus the broadcast bias), the
  Gram matrix  M = hᵀ · h  (a product contracting the position axis of both operands) and the output  q · M.
  Each product goes into a zero accumulator, so at the exact instance it is a plain sum over its one
  contracted axis; the shape casts only add or drop a leading unit axis. So the value stored for a batch is
  the Gram-first form of the attention output over that batch's rows.
-/
import proofs.«125931_j69063074120430_2_alg».proof.Proof.Gen.KernelIdeal.Frame
import proofs.«125931_j69063074120430_2_alg».proof.Proof.Attention
import proofs.«125931_j69063074120430_2_alg».proof.Proof.LibContract
import Idealize.ShloMosaic.Lib.Pipeline.Value

set_option maxRecDepth 16384

noncomputable section

namespace Cert.KernelIdeal.KerValue

open Cert.KernelIdeal Cert.KernelIdeal.Gen
open Idealize.ShloMosaic Idealize.ShloMosaic.ValueIdx Cert.Attention Cert.LibContract

/-! ## The three products' operand positions, coordinate by coordinate -/

theorem lhs_query_0 (i : S2048x100.Idx) (q : dot_S2048x100_S100x100_S2048x100_1_1_0_0_n_n.contr.Idx) :
    (dot_S2048x100_S100x100_S2048x100_1_1_0_0_n_n.lhsIdx i q 0).val = (i 0).val := by
  unfold DotDims.lhsIdx
  rw [dif_neg (show ¬(0 : Fin S2048x100.rank) ∈ dot_S2048x100_S100x100_S2048x100_1_1_0_0_n_n.lhsBatch by decide), dif_pos (show (0 : Fin S2048x100.rank) ∈ dot_S2048x100_S100x100_S2048x100_1_1_0_0_n_n.lhsNonContracting by decide)]
  rfl
theorem lhs_query_1 (i : S2048x100.Idx) (q : dot_S2048x100_S100x100_S2048x100_1_1_0_0_n_n.contr.Idx) :
    (dot_S2048x100_S100x100_S2048x100_1_1_0_0_n_n.lhsIdx i q 1).val = (q ⟨0, by decide⟩).val :=
  dot_S2048x100_S100x100_S2048x100_1_1_0_0_n_n.lhsIdx_val_of_single rfl i q
theorem rhs_query_0 (i : S2048x100.Idx) (q : dot_S2048x100_S100x100_S2048x100_1_1_0_0_n_n.contr.Idx) :
    (dot_S2048x100_S100x100_S2048x100_1_1_0_0_n_n.rhsIdx i q 0).val = (i 1).val := by
  unfold DotDims.rhsIdx
  rw [dif_neg (show ¬(0 : Fin S100x100.rank) ∈ dot_S2048x100_S100x100_S2048x100_1_1_0_0_n_n.rhsBatch by decide), dif_pos (show (0 : Fin S100x100.rank) ∈ dot_S2048x100_S100x100_S2048x100_1_1_0_0_n_n.rhsNonContracting by decide)]
  rfl
theorem rhs_query_1 (i : S2048x100.Idx) (q : dot_S2048x100_S100x100_S2048x100_1_1_0_0_n_n.contr.Idx) :
    (dot_S2048x100_S100x100_S2048x100_1_1_0_0_n_n.rhsIdx i q 1).val = (q ⟨0, by decide⟩).val :=
  dot_S2048x100_S100x100_S2048x100_1_1_0_0_n_n.rhsIdx_val_of_single rfl i q

theorem lhs_gram_0 (i : S100x100.Idx) (q : dot_S2048x100_S2048x100_S100x100_0_0_1_1_n_n.contr.Idx) :
    (dot_S2048x100_S2048x100_S100x100_0_0_1_1_n_n.lhsIdx i q 0).val = (q ⟨0, by decide⟩).val :=
  dot_S2048x100_S2048x100_S100x100_0_0_1_1_n_n.lhsIdx_val_of_single rfl i q
theorem lhs_gram_1 (i : S100x100.Idx) (q : dot_S2048x100_S2048x100_S100x100_0_0_1_1_n_n.contr.Idx) :
    (dot_S2048x100_S2048x100_S100x100_0_0_1_1_n_n.lhsIdx i q 1).val = (i 0).val := by
  unfold DotDims.lhsIdx
  rw [dif_neg (show ¬(1 : Fin S2048x100.rank) ∈ dot_S2048x100_S2048x100_S100x100_0_0_1_1_n_n.lhsBatch by decide), dif_pos (show (1 : Fin S2048x100.rank) ∈ dot_S2048x100_S2048x100_S100x100_0_0_1_1_n_n.lhsNonContracting by decide)]
  rfl
theorem rhs_gram_0 (i : S100x100.Idx) (q : dot_S2048x100_S2048x100_S100x100_0_0_1_1_n_n.contr.Idx) :
    (dot_S2048x100_S2048x100_S100x100_0_0_1_1_n_n.rhsIdx i q 0).val = (q ⟨0, by decide⟩).val :=
  dot_S2048x100_S2048x100_S100x100_0_0_1_1_n_n.rhsIdx_val_of_single rfl i q
theorem rhs_gram_1 (i : S100x100.Idx) (q : dot_S2048x100_S2048x100_S100x100_0_0_1_1_n_n.contr.Idx) :
    (dot_S2048x100_S2048x100_S100x100_0_0_1_1_n_n.rhsIdx i q 1).val = (i 1).val := by
  unfold DotDims.rhsIdx
  rw [dif_neg (show ¬(1 : Fin S2048x100.rank) ∈ dot_S2048x100_S2048x100_S100x100_0_0_1_1_n_n.rhsBatch by decide), dif_pos (show (1 : Fin S2048x100.rank) ∈ dot_S2048x100_S2048x100_S100x100_0_0_1_1_n_n.rhsNonContracting by decide)]
  rfl

theorem lhs_out_0 (i : S2048x100.Idx) (q : dot_S2048x100_S100x100_S2048x100_1_0_0_1_n_n.contr.Idx) :
    (dot_S2048x100_S100x100_S2048x100_1_0_0_1_n_n.lhsIdx i q 0).val = (i 0).val := by
  unfold DotDims.lhsIdx
  rw [dif_neg (show ¬(0 : Fin S2048x100.rank) ∈ dot_S2048x100_S100x100_S2048x100_1_0_0_1_n_n.lhsBatch by decide), dif_pos (show (0 : Fin S2048x100.rank) ∈ dot_S2048x100_S100x100_S2048x100_1_0_0_1_n_n.lhsNonContracting by decide)]
  rfl
theorem lhs_out_1 (i : S2048x100.Idx) (q : dot_S2048x100_S100x100_S2048x100_1_0_0_1_n_n.contr.Idx) :
    (dot_S2048x100_S100x100_S2048x100_1_0_0_1_n_n.lhsIdx i q 1).val = (q ⟨0, by decide⟩).val :=
  dot_S2048x100_S100x100_S2048x100_1_0_0_1_n_n.lhsIdx_val_of_single rfl i q
theorem rhs_out_0 (i : S2048x100.Idx) (q : dot_S2048x100_S100x100_S2048x100_1_0_0_1_n_n.contr.Idx) :
    (dot_S2048x100_S100x100_S2048x100_1_0_0_1_n_n.rhsIdx i q 0).val = (q ⟨0, by decide⟩).val :=
  dot_S2048x100_S100x100_S2048x100_1_0_0_1_n_n.rhsIdx_val_of_single rfl i q
theorem rhs_out_1 (i : S2048x100.Idx) (q : dot_S2048x100_S100x100_S2048x100_1_0_0_1_n_n.contr.Idx) :
    (dot_S2048x100_S100x100_S2048x100_1_0_0_1_n_n.rhsIdx i q 1).val = (i 1).val := by
  unfold DotDims.rhsIdx
  rw [dif_neg (show ¬(1 : Fin S100x100.rank) ∈ dot_S2048x100_S100x100_S2048x100_1_0_0_1_n_n.rhsBatch by decide), dif_pos (show (1 : Fin S100x100.rank) ∈ dot_S2048x100_S100x100_S2048x100_1_0_0_1_n_n.rhsNonContracting by decide)]
  rfl

/-! ## Each product as a plain sum -/

/-- The query product: rows of the batch against rows of the weight, contracted over the feature axis. -/
theorem query_entry (l : FVec Ideal S2048x100 .bf16) (r : FVec Ideal S100x100 .bf16) (n : Fin 2048) (o : Fin 100) :
    matmul dot_S2048x100_S100x100_S2048x100_1_1_0_0_n_n none l r (constant (F := Ideal) S2048x100 .f32 0x00000000#32) (ix2 n o)
      = ∑ k : Fin 100, l (ix2 n k) * r (ix2 o k) := by
  refine matmul_zero_entry dot_S2048x100_S100x100_S2048x100_1_1_0_0_n_n none 100 rfl rfl l r (ix2 n o) _ _ (fun k => ?_) (fun k => ?_)
  · have hk := contrEquiv1_symm_val dot_S2048x100_S100x100_S2048x100_1_1_0_0_n_n 100 rfl rfl k
    refine funext fun a => Fin.ext ?_
    match a with
    | ⟨0, _⟩ => exact lhs_query_0 _ _
    | ⟨1, _⟩ => exact (lhs_query_1 _ _).trans hk
  · have hk := contrEquiv1_symm_val dot_S2048x100_S100x100_S2048x100_1_1_0_0_n_n 100 rfl rfl k
    refine funext fun a => Fin.ext ?_
    match a with
    | ⟨0, _⟩ => exact rhs_query_0 _ _
    | ⟨1, _⟩ => exact (rhs_query_1 _ _).trans hk

/-- The Gram product: columns of the batch against columns of the batch, contracted over the position axis. -/
theorem gram_entry (l r : FVec Ideal S2048x100 .bf16) (d e : Fin 100) :
    matmul dot_S2048x100_S2048x100_S100x100_0_0_1_1_n_n none l r (constant (F := Ideal) S100x100 .f32 0x00000000#32) (ix2 d e)
      = ∑ j : Fin 2048, l (ix2 j d) * r (ix2 j e) := by
  refine matmul_zero_entry dot_S2048x100_S2048x100_S100x100_0_0_1_1_n_n none 2048 rfl rfl l r (ix2 d e) _ _ (fun k => ?_) (fun k => ?_)
  · have hk := contrEquiv1_symm_val dot_S2048x100_S2048x100_S100x100_0_0_1_1_n_n 2048 rfl rfl k
    refine funext fun a => Fin.ext ?_
    match a with
    | ⟨0, _⟩ => exact (lhs_gram_0 _ _).trans hk
    | ⟨1, _⟩ => exact lhs_gram_1 _ _
  · have hk := contrEquiv1_symm_val dot_S2048x100_S2048x100_S100x100_0_0_1_1_n_n 2048 rfl rfl k
    refine funext fun a => Fin.ext ?_
    match a with
    | ⟨0, _⟩ => exact (rhs_gram_0 _ _).trans hk
    | ⟨1, _⟩ => exact rhs_gram_1 _ _

/-- The output product: query rows against the Gram matrix, contracted over the feature axis. -/
theorem out_entry (l : FVec Ideal S2048x100 .f32) (r : FVec Ideal S100x100 .f32) (n : Fin 2048) (e : Fin 100) :
    matmul dot_S2048x100_S100x100_S2048x100_1_0_0_1_n_n (some .fp32) l r (constant (F := Ideal) S2048x100 .f32 0x00000000#32) (ix2 n e)
      = ∑ d : Fin 100, l (ix2 n d) * r (ix2 d e) := by
  refine matmul_zero_entry dot_S2048x100_S100x100_S2048x100_1_0_0_1_n_n (some .fp32) 100 rfl rfl l r (ix2 n e) _ _ (fun k => ?_) (fun k => ?_)
  · have hk := contrEquiv1_symm_val dot_S2048x100_S100x100_S2048x100_1_0_0_1_n_n 100 rfl rfl k
    refine funext fun a => Fin.ext ?_
    match a with
    | ⟨0, _⟩ => exact lhs_out_0 _ _
    | ⟨1, _⟩ => exact (lhs_out_1 _ _).trans hk
  · have hk := contrEquiv1_symm_val dot_S2048x100_S100x100_S2048x100_1_0_0_1_n_n 100 rfl rfl k
    refine funext fun a => Fin.ext ?_
    match a with
    | ⟨0, _⟩ => exact (rhs_out_0 _ _).trans hk
    | ⟨1, _⟩ => exact rhs_out_1 _ _

/-! ## The layout operations of the body, at an index -/

/-- Dropping the leading unit axis of a batch's block. -/
theorem dropUnit_apply (v : FVec Ideal S1x2048x100 .bf16) (j : Fin 2048) (d : Fin 100) :
    shapeCast S2048x100 v shapeCasts_S1x2048x100_S2048x100 (ix2 j d) = v (ix3 (0 : Fin 1) j d) := by
  refine shapeCast_apply v _ (ix2 j d) (ix3 (0 : Fin 1) j d) ?_
  rw [Shape.rowMajor_val_two, Shape.rowMajor_val_three]
  show ((0 : ℕ) * 2048 + j.val) * 100 + d.val = j.val * 100 + d.val
  omega

/-- Adding a leading unit axis to a batch's result. -/
theorem addUnit_apply (v : FVec Ideal S2048x100 .f32) (n : Fin 2048) (e : Fin 100) :
    shapeCast S1x2048x100 v shapeCasts_S2048x100_S1x2048x100 (ix3 (0 : Fin 1) n e) = v (ix2 n e) := by
  refine shapeCast_apply v _ (ix3 (0 : Fin 1) n e) (ix2 n e) ?_
  rw [Shape.rowMajor_val_two, Shape.rowMajor_val_three]
  show n.val * 100 + e.val = ((0 : ℕ) * 2048 + n.val) * 100 + e.val
  omega

/-- The bias row broadcast down the positions. -/
theorem biasRow_apply (v : FVec Ideal S1x100 .f32) (n : Fin 2048) (d : Fin 100) :
    broadcastTo S2048x100 v broadcasts_S1x100_S2048x100 (ix2 n d) = v (ix2 (0 : Fin 1) d) := by
  refine broadcastTo_apply v _ (ix2 n d) (ix2 (0 : Fin 1) d) (fun a => ?_)
  match a with
  | ⟨0, _⟩ => rfl
  | ⟨1, _⟩ => rfl

/-! ## The value stored for one batch -/

/-- The payload of a batch's store, at position `n` and feature `e`: the Gram-first attention output over the
    batch's rows `v4`, the weight `v0` and the bias row `v2`. -/
theorem pay_apply (v0 : Vec Ideal S100x100 .bf16) (v2 : Vec Ideal S1x100 .f32) (v4 : Vec Ideal S1x2048x100 .bf16)
    (n : Fin 2048) (e : Fin 100) :
    k0_pay3 v0 v2 v4 (ix3 (0 : Fin 1) n e)
      = viaGram (S := 2048) (D := 100) (fun j d => v4 (ix3 (0 : Fin 1) j d)) (fun d k => v0 (ix2 d k)) (fun d => v2 (ix2 (0 : Fin 1) d)) n e := by
  unfold k0_pay3 k0_pay1 k0_pay2
  rw [shapeCast_self, shapeCast_self, addUnit_apply, out_entry]
  unfold viaGram query
  refine Finset.sum_congr rfl fun d _ => ?_
  rw [addf_apply, query_entry, biasRow_apply, gram_entry]
  simp only [dropUnit_apply]

/-! ## The output block of a grid point

The body stores the two batches of its block through two rectangles, batch 0 at offset (0, 0, 0) and batch 1 at
offset (1, 0, 0), each of one batch's extent; the weight and the bias row are loaded whole. -/

theorem zero_offsets : (![0, 0] : Fin 2 → Nat) = fun _ => 0 := funext fun a => by fin_cases a <;> rfl

/-- The second batch's store has the first's payload, of its own rows. -/
theorem pay4_eq (v0 : Vec Ideal S100x100 .bf16) (v2 : Vec Ideal S1x100 .f32) (v14 : Vec Ideal S1x2048x100 .bf16) :
    k0_pay4 v0 v2 v14 = k0_pay3 v0 v2 v14 := rfl

/-- A position inside one batch: its batch coordinate is 0. -/
theorem eq_ix3_unit (x : S1x2048x100.Idx) : x = ix3 (0 : Fin 1) (x 1 : Fin 2048) (x 2 : Fin 100) :=
  funext fun a => by
    match a with
    | ⟨0, _⟩ => exact Fin.ext (by show (x 0).val = 0; have h : (x 0).val < 1 := (x 0).isLt; omega)
    | ⟨1, _⟩ => rfl
    | ⟨2, _⟩ => rfl

/-- Batch 0's rectangle places (0, j, d) at (0, j, d) of the block, -/
theorem idx_first (x : S1x2048x100.Idx) : r0_2.idx x = ix3 (0 : Fin 2) (x 1 : Fin 2048) (x 2 : Fin 100) :=
  funext fun a => Fin.ext (by
    match a with
    | ⟨0, _⟩ => show 0 + 1 * (x 0).val = 0; have h : (x 0).val < 1 := (x 0).isLt; omega
    | ⟨1, _⟩ => show 0 + 1 * (x 1).val = (x 1).val; omega
    | ⟨2, _⟩ => show 0 + 1 * (x 2).val = (x 2).val; omega)

/-- and batch 1's places it at (1, j, d). -/
theorem idx_second (x : S1x2048x100.Idx) : r0_3.idx x = ix3 (1 : Fin 2) (x 1 : Fin 2048) (x 2 : Fin 100) :=
  funext fun a => Fin.ext (by
    match a with
    | ⟨0, _⟩ => show 1 + 1 * (x 0).val = 1; have h : (x 0).val < 1 := (x 0).isLt; omega
    | ⟨1, _⟩ => show 0 + 1 * (x 1).val = (x 1).val; omega
    | ⟨2, _⟩ => show 0 + 1 * (x 2).val = (x 2).val; omega)

/-- What the first store writes, as a function of the block's three inputs. -/
theorem first_apply (x0 : Vec Ideal S2x2048x100 .bf16) (x1 : Vec Ideal S100x100 .bf16) (x2 : Vec Ideal S1x100 .f32)
    (x : S1x2048x100.Idx) :
    k0_pay3 (View.ld x1 r0_0) (View.ld x2 r0_1) (View.ld x0 r0_2) x
      = viaGram (S := 2048) (D := 100) (fun j d => x0 (ix3 (0 : Fin 2) j d)) (fun d k => x1 (ix2 d k))
          (fun d => x2 (ix2 (0 : Fin 1) d)) (x 1) (x 2) := by
  rw [View.ld_unit_zero (S := S100x100) zero_offsets, View.ld_unit_zero (S := S1x100) zero_offsets]
  obtain ⟨n, e, rfl⟩ : ∃ (n : Fin 2048) (e : Fin 100), x = ix3 (0 : Fin 1) n e := ⟨x 1, x 2, eq_ix3_unit x⟩
  rw [pay_apply]
  show viaGram (fun j d => x0 (r0_2.idx (ix3 (0 : Fin 1) j d))) _ _ n e = _
  simp only [idx_first]
  rfl

/-- What the second store writes. -/
theorem second_apply (x0 : Vec Ideal S2x2048x100 .bf16) (x1 : Vec Ideal S100x100 .bf16) (x2 : Vec Ideal S1x100 .f32)
    (x : S1x2048x100.Idx) :
    k0_pay4 (View.ld x1 r0_0) (View.ld x2 r0_1) (View.ld x0 r0_3) x
      = viaGram (S := 2048) (D := 100) (fun j d => x0 (ix3 (1 : Fin 2) j d)) (fun d k => x1 (ix2 d k))
          (fun d => x2 (ix2 (0 : Fin 1) d)) (x 1) (x 2) := by
  rw [pay4_eq, View.ld_unit_zero (S := S100x100) zero_offsets, View.ld_unit_zero (S := S1x100) zero_offsets]
  obtain ⟨n, e, rfl⟩ : ∃ (n : Fin 2048) (e : Fin 100), x = ix3 (0 : Fin 1) n e := ⟨x 1, x 2, eq_ix3_unit x⟩
  rw [pay_apply]
  show viaGram (fun j d => x0 (r0_3.idx (ix3 (0 : Fin 1) j d))) _ _ n e = _
  simp only [idx_second]
  rfl

/-- The block the body leaves, at batch `y 0`, position `y 1`, feature `y 2`: the Gram-first output over that
    batch's rows of the input block. -/
theorem block_apply (x0 : Vec Ideal S2x2048x100 .bf16) (x1 : Vec Ideal S100x100 .bf16) (x2 : Vec Ideal S1x100 .f32)
    (y : S2x2048x100.Idx) :
    out0_3 x0 x1 x2 y
      = viaGram (S := 2048) (D := 100) (fun j d => x0 (ix3 (y 0 : Fin 2) j d)) (fun d k => x1 (ix2 d k))
          (fun d => x2 (ix2 (0 : Fin 1) d)) (y 1) (y 2) := by
  unfold out0_3
  refine View.canon_apply_of_pieces (Val := Elt Ideal) (e := .f32)
    (fun y : S2x2048x100.Idx => viaGram (S := 2048) (D := 100) (fun j d => x0 (ix3 (y 0 : Fin 2) j d)) (fun d k => x1 (ix2 d k))
      (fun d => x2 (ix2 (0 : Fin 1) d)) (y 1) (y 2)) _ ?_ y (cover0_3 _ _ y)
  intro p hp x
  rcases List.mem_cons.mp hp with rfl | hp
  · refine (second_apply x0 x1 x2 x).trans ?_
    show _ = viaGram (fun j d => x0 (ix3 ((r0_3.idx x) 0 : Fin 2) j d)) _ _ ((r0_3.idx x) 1) ((r0_3.idx x) 2)
    rw [idx_second]
  · obtain rfl := List.mem_singleton.mp hp
    refine (first_apply x0 x1 x2 x).trans ?_
    show _ = viaGram (fun j d => x0 (ix3 ((r0_2.idx x) 0 : Fin 2) j d)) _ _ ((r0_2.idx x) 1) ((r0_2.idx x) 2)
    rw [idx_first]

end Cert.KernelIdeal.KerValue

end
-- ==== Proof.KernelArray.lean ====
/-
  From the blocks to the whole output array.

  Grid point `t` works on batches 2t and 2t + 1: its input block of gathered rows and its output block both sit
  at block index (t, 0, 0) of a [32, 2048, 100] array cut into blocks of two batches; the weight and the bias row
  are one block each. So what point `t` writes back is block `t` of ONE whole-array function — the Gram-first
  attention output over the arrays the region finds —, the sixteen blocks tile the array, and the array ends
  holding that function.
-/
import proofs.«125931_j69063074120430_2_alg».proof.Proof.Gen.KernelIdeal.Value
import proofs.«125931_j69063074120430_2_alg».proof.Proof.KernelSide

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

/-- The whole-array function the output ends at: the Gram-first output over the gathered rows, the weight and the
    bias row as the region finds them. -/
def arrayOut (c : Dev nD) : S32x2048x100.Idx → EReal :=
  gramOut (S := 2048) (D := 100) (B := 32) (V m c main_v7) (V m c main_v8) (fun d => V m c main_v9 (ix2 (0 : Fin 1) d))

/-- The printed index maps, decided over the sixteen points: the rows' block moves with the output's along the batch
    axis, every other block index is 0. -/
theorem idx_facts : ∀ t : Fin cfg0.N,
    win0_0.index t (0 : Fin 3) = win0_3.index t (0 : Fin 3) ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 :=
  (by decide +kernel : ∀ t : Fin grid0.N, _)

/-- Every pair of batches is some point's. -/
theorem idx_onto : ∀ q : Fin 16, ∃ t : Fin cfg0.N, win0_3.index t = ![q.val, 0, 0] :=
  (by decide +kernel : ∀ q : Fin 16, ∃ t : Fin grid0.N, win0_3.index t = ![q.val, 0, 0])

/-- WHAT POINT `t` WRITES BACK is block `t` of the whole-array function. -/
theorem flushed_eq (c : Dev nD) (t : Fin cfg0.N) :
    (dats m 0 c).flushed 3 t = ((cfg0.win 3).blk t).view.read (Elt Ideal) (arrayOut m c) := by
  rw [Value.flushed3]
  obtain ⟨e0, e1, e2, e3, e4, e5, e6, e7, e8, e9⟩ := idx_facts t
  funext y
  show out0_3 (iblk m c 0 t) (iblk m c 1 t) (iblk m c 2 t) y = arrayOut m c (((cfg0.win 3).blk t).view.emb y)
  refine (block_apply _ _ _ y).trans ?_
  unfold arrayOut gramOut
  have hrows : ∀ (j : Fin 2048) (d : Fin 100),
      iblk m c 0 t (ix3 (y 0 : Fin 2) j d) = V m c main_v7 (ix3 (((cfg0.win 3).blk t).view.emb y 0 : Fin 32) j d) := fun j d => by
    show V m c main_v7 (((cfg0.win 0).blk t).view.emb (ix3 (y 0 : Fin 2) j d)) = _
    refine congrArg _ (funext fun a => Fin.ext ?_)
    match a with
    | ⟨0, _⟩ => show win0_0.index t (0 : Fin 3) * 2 + 1 * (y 0).val = win0_3.index t (0 : Fin 3) * 2 + 1 * (y 0).val; omega
    | ⟨1, _⟩ => show win0_0.index t (1 : Fin 3) * 2048 + 1 * j.val = j.val; omega
    | ⟨2, _⟩ => show win0_0.index t (2 : Fin 3) * 100 + 1 * d.val = d.val; omega
  have hweight : ∀ (d k : Fin 100), iblk m c 1 t (ix2 d k) = V m c main_v8 (ix2 d k) := fun d k => by
    show V m c main_v8 (((cfg0.win 1).blk t).view.emb (ix2 d k)) = _
    refine congrArg _ (funext fun a => Fin.ext ?_)
    match a with
    | ⟨0, _⟩ => show win0_1.index t (0 : Fin 2) * 100 + 1 * d.val = d.val; omega
    | ⟨1, _⟩ => show win0_1.index t (1 : Fin 2) * 100 + 1 * k.val = k.val; omega
  have hbias : ∀ (d : Fin 100), iblk m c 2 t (ix2 (0 : Fin 1) d) = V m c main_v9 (ix2 (0 : Fin 1) d) := fun d => by
    show V m c main_v9 (((cfg0.win 2).blk t).view.emb (ix2 (0 : Fin 1) d)) = _
    refine congrArg _ (funext fun a => Fin.ext ?_)
    match a with
    | ⟨0, _⟩ => show win0_2.index t (0 : Fin 2) * 1 + 1 * 0 = 0; omega
    | ⟨1, _⟩ => show win0_2.index t (1 : Fin 2) * 100 + 1 * d.val = d.val; omega
  have hn : (y 1 : Fin 2048) = ((cfg0.win 3).blk t).view.emb y 1 :=
    Fin.ext (by show (y 1).val = win0_3.index t (1 : Fin 3) * 2048 + 1 * (y 1).val; omega)
  have he : (y 2 : Fin 100) = ((cfg0.win 3).blk t).view.emb y 2 :=
    Fin.ext (by show (y 2).val = win0_3.index t (2 : Fin 3) * 100 + 1 * (y 2).val; omega)
  have key : ∀ (H H' : Fin 2048 → Fin 100 → EReal) (W W' : Fin 100 → Fin 100 → EReal) (b b' : Fin 100 → EReal)
      (n n' : Fin 2048) (e e' : Fin 100), H = H' → W = W' → b = b' → n = n' → e = e' →
      viaGram H W b n e = viaGram H' W' b' n' e' := by
    intros; subst_vars; rfl
  exact key _ _ _ _ _ _ _ _ _ _ (funext fun j => funext fun d => hrows j d)
    (funext fun d => funext fun k => hweight d k) (funext hbias) hn he

/-- An index of the array is in point `t`'s block iff each coordinate is in the block's range on its axis. -/
theorem mem_blk (t : Fin cfg0.N) (i : S32x2048x100.Idx) :
    i ∈ ((cfg0.win 3).blk t).view.set ↔ ∀ a : Fin 3, win0_3.index t a * S2x2048x100.size a ≤ (i a).val ∧ (i a).val < win0_3.index t a * S2x2048x100.size a + S2x2048x100.size a := by
  show i ∈ ((View.whole main_v10).slice (win0_3.rect t)).set ↔ _
  rw [View.set_slice_whole, Rect.mem_set_unit]
  exact Iff.rfl

/-- The sixteen blocks cover the array: batch `b` is in the block of point `b / 2`. -/
theorem covered (i : S32x2048x100.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 100 := (i 2).isLt
  obtain ⟨t, ht⟩ := idx_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 100 ≤ (i 2).val ∧ (i 2).val < win0_3.index t (2 : Fin 3) * 100 + 100; omega

/-- THE ARRAY after the run is the whole-array function. -/
theorem final (c : Dev nD) : (dats m 0 c).arrAt 3 cfg0.N = arrayOut m c :=
  (dats m 0 c).arrAt_eq_of_cover 3 (arrayOut m c) (fun t _ => flushed_eq m c t) covered

/-- The kernel's run, read: the result array ends at the whole-array function, the arguments unchanged. -/
theorem run : θ_run defs (onTc (τ := τ) (main (F := Ideal))) ⟨m, fun _ => 0, ρ⟩ fun r => ∀ c : Dev nD,
      r.2.mem ((c : Thread nD τ).loc main_v10) = arrayOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerValue

end
-- ==== Proof.RefSide.lean ====
/-
  The reference program's result, read index by index.

  The reference gathers the embedding rows `h`, forms the query rows  q = h · Wᵀ + b,  the scores
  s_{b,i,j} = ∑_d q_{b,i,d} · h_{b,j,d}  and the output  ∑_j s_{b,i,j} · h_{b,j,e}.  Its three matrix products
  are sums over one contracted axis, and the bias reaches every position through two broadcasts; so the
  result array is the scores-first form of the attention output over the gathered rows.
-/
import proofs.«125931_j69063074120430_2_alg».proof.Proof.Gen.ReferenceIdeal.Read
import proofs.«125931_j69063074120430_2_alg».proof.Proof.Attention

noncomputable section

namespace Cert.ReferenceIdeal.RefValue

open Cert.ReferenceIdeal Cert.ReferenceIdeal.Gen Cert.ReferenceIdeal.Read
open Idealize.ShloMosaic Idealize.ShloMosaic.ValueIdx Cert.Attention

/-- The result of the reference's last matrix product is the scores-first output over the gathered rows. -/
theorem result_eq_scoresOut (x0 : (⟨S32x2048, .i32⟩ : BufTy).Contents (Elt Ideal)) (x1 : (⟨S50000x100, .f32⟩ : BufTy).Contents (Elt Ideal))
    (x2 : (⟨S100x100, .f32⟩ : BufTy).Contents (Elt Ideal)) (x3 : (⟨S100, .f32⟩ : BufTy).Contents (Elt Ideal)) :
    val_main_v12 (F := Ideal) x0 x1 x2 x3
      = scoresOut (S := 2048) (D := 100) (B := 32) (val_main_v6 (F := Ideal) x0 x1) x2 (fun d => x3 (ix1 d)) := by
  funext i
  rw [val_main_v12_apply]
  simp only [val_main_v11_apply, val_main_v10_apply, val_main_v7_apply, val_main_v9_apply, val_main_v8_apply]
  unfold scoresOut viaScores query
  have e1 : ∀ (x : Fin 2048) (y z : Fin 100),
      lidx_main_v7 (lidx_main_v11 (lidx_main_v12 i x) y) z = ix3 (i 0) (i 1) z := fun _ _ _ =>
    funext fun a => by match a with | ⟨0, _⟩ => rfl | ⟨1, _⟩ => rfl | ⟨2, _⟩ => rfl
  have e2 : ∀ (x : Fin 2048) (y z : Fin 100),
      ridx_main_v7 (lidx_main_v11 (lidx_main_v12 i x) y) z = ix2 y z := fun _ _ _ =>
    funext fun a => by match a with | ⟨0, _⟩ => rfl | ⟨1, _⟩ => rfl
  have e3 : ∀ (x : Fin 2048) (y : Fin 100),
      idx_main_v8 (idx_main_v9 (lidx_main_v11 (lidx_main_v12 i x) y)) = ix1 y := fun _ _ =>
    funext fun a => by match a with | ⟨0, _⟩ => rfl
  have e4 : ∀ (x : Fin 2048) (y : Fin 100),
      ridx_main_v11 (lidx_main_v12 i x) y = ix3 (i 0) x y := fun _ _ =>
    funext fun a => by match a with | ⟨0, _⟩ => rfl | ⟨1, _⟩ => rfl | ⟨2, _⟩ => rfl
  have e5 : ∀ (x : Fin 2048), ridx_main_v12 i x = ix3 (i 0) x (i 2) := fun _ =>
    funext fun a => by match a with | ⟨0, _⟩ => rfl | ⟨1, _⟩ => rfl | ⟨2, _⟩ => rfl
  simp only [e1, e2, e3, e4, e5]
  rfl

end Cert.ReferenceIdeal.RefValue

end
-- ==== Proof.Finite.lean ====
/-
  What the precondition gives: every entry of the three float arguments is a real number.

  The precondition is the conjunction, over the embedding table, the weight and the bias, of "every entry's
  absolute value is below +∞". On the extended reals `|x| < +∞` excludes exactly the two infinities, so each
  entry is the coercion of a real.
-/
import proofs.«125931_j69063074120430_2_alg».proof.Pre_finite_inputs
import proofs.«125931_j69063074120430_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- `|x| < +∞` on the extended reals: `x` is a real number. -/
theorem real_of_abs_lt_top (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    have h0 : Ideal.cmp .olt (max (x : EReal) (-(x : EReal))) ⊤ = 0#1 := by
      unfold Ideal.cmp; simp [hn]
    rw [h0] at h
    exact absurd h (by decide)
  rw [max_lt_iff] at hlt
  induction x using EReal.rec with
  | bot => simp at hlt
  | coe r => exact ⟨r, rfl⟩
  | top => simp at hlt

/-- Under the precondition the three float arguments hold real numbers. -/
theorem real_of_pre (a0 : IVec S32x2048 32) (a1 : FVec Ideal S50000x100 .f32) (a2 : FVec Ideal S100x100 .f32)
    (a3 : FVec Ideal S100 .f32) (h : fn (F := Ideal) a0 a1 a2 a3 = fun _ => 1#1) :
    (∀ i, ∃ r : ℝ, (a1 i : EReal) = (r : EReal)) ∧ (∀ i, ∃ r : ℝ, (a2 i : EReal) = (r : EReal))
      ∧ (∀ i, ∃ r : ℝ, (a3 i : EReal) = (r : EReal)) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)

end Cert.Finite

end
-- ==== Proof.Bridge.lean ====
/-
  The two programs compute one array.

  Before its region the kernel's host program prepares three arrays: the gathered embedding rows (the table is
  first converted to a narrower float format, which at the exact instance changes nothing, and the gather reads
  the same row indices as the reference's — negative indices wrapped once, then clamped into the table), the
  weight in the narrower format (again unchanged), and the bias reshaped to one row. Every gathered entry is an
  entry of the table, so under the precondition the rows, the weight and the bias hold real numbers, and on real
  entries the Gram-first output the kernel forms is the scores-first output the reference forms.
-/
import proofs.«125931_j69063074120430_2_alg».proof.Proof.KernelArray
import proofs.«125931_j69063074120430_2_alg».proof.Proof.RefSide
import proofs.«125931_j69063074120430_2_alg».proof.Proof.Finite
import Idealize.ShloMosaic.Lib.StableHlo.Run

set_option maxRecDepth 16384

noncomputable section

namespace Cert.Bridge

open Cert.KernelIdeal Cert.KernelIdeal.Gen Cert.KernelIdeal.KerValue
open Idealize.ShloMosaic Idealize.ShloMosaic.TcCoe Idealize.SL.Sem Idealize.ShloMosaic.ValueIdx Idealize.ShloMosaic.StableHlo
open Cert.Attention

variable (m : (ℓ : Loc nD τ sig) → Buf (Elt Ideal) ℓ)

/-- The rows the region finds are the reference's gathered rows of the same arguments. -/
theorem rows_eq (c : Dev nD) :
    (V m c main_v7 : S32x2048x100.Idx → EReal)
      = Cert.ReferenceIdeal.Read.val_main_v6 (F := Ideal) (m ((c : Thread nD τ).loc main_arg0)) (m ((c : Thread nD τ).loc main_arg1)) := by
  dsimp only [Gen.V, Gen.hostOps0]
  after_results
  rfl

/-- The weight the region finds is the weight argument. -/
theorem weight_eq (c : Dev nD) :
    (V m c main_v8 : S100x100.Idx → EReal) = m ((c : Thread nD τ).loc main_arg2) := by
  dsimp only [Gen.V, Gen.hostOps0]
  after_results
  rfl

/-- The bias row the region finds is the bias argument, entry by entry. -/
theorem bias_eq (c : Dev nD) (d : Fin 100) :
    (V m c main_v9 : S1x100.Idx → EReal) (ix2 (0 : Fin 1) d) = m ((c : Thread nD τ).loc main_arg3) (ix1 d) := by
  have e : (V m c main_v9 : S1x100.Idx → EReal)
      = shapeCast S1x100 (m ((c : Thread nD τ).loc main_arg3)) shapeCasts_S100_S1x100 := by
    dsimp only [Gen.V, Gen.hostOps0]
    after_results
    rfl
  rw [e]
  refine shapeCast_apply _ _ (ix2 (0 : Fin 1) d) (ix1 d) ?_
  rw [Shape.rowMajor_val_one, Shape.rowMajor_val_two]
  show d.val = (0 : ℕ) * 100 + d.val
  omega

/-- Under the precondition the array the kernel ends at is the reference's scores-first output of the same
    arguments. -/
theorem arrayOut_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    arrayOut m c
      = scoresOut (S := 2048) (D := 100) (B := 32)
          (Cert.ReferenceIdeal.Read.val_main_v6 (F := Ideal) (m ((c : Thread nD τ).loc main_arg0)) (m ((c : Thread nD τ).loc main_arg1)))
          (m ((c : Thread nD τ).loc main_arg2)) (fun d => m ((c : Thread nD τ).loc main_arg3) (ix1 d)) := by
  obtain ⟨h1, h2, h3⟩ := Cert.Finite.real_of_pre _ _ _ _ hpre
  unfold arrayOut
  rw [rows_eq, weight_eq, show (fun d => V m c main_v9 (ix2 (0 : Fin 1) d)) = fun d => m ((c : Thread nD τ).loc main_arg3) (ix1 d) from
    funext (bias_eq m c)]
  exact gramOut_eq_scoresOut _ _ _ (fun i => h1 _) h2 (fun d => h3 _)

end Cert.Bridge

end
-- ==== Proof.lean ====
/-
  The certificate's five claims.

  The kernel gathers embedding rows h and, per batch, forms q = h · Wᵀ + b, the Gram matrix M = hᵀ · h and the
  output q · M; the reference forms the scores q · hᵀ and then (q · hᵀ) · h. The two outputs are equal because the
  matrix product is associative — on the extended reals this uses that, under the precondition, every entry is a
  real number (Proof/Attention.lean, Proof/Finite.lean). The kernel's output array is read off its run block by block
  (Proof/KernelSide.lean, Proof/KernelArray.lean), the reference's off its run operation by operation
  (Proof/RefSide.lean), and Proof/Bridge.lean joins them. The three frame claims are the programs' runs with the
  result dropped; the idealization rewrote nothing, so the preservation claim has no conjunct.
-/
import proofs.«125931_j69063074120430_2_alg».proof.Defs
import proofs.«125931_j69063074120430_2_alg».proof.Proof.Gen.Kernel
import proofs.«125931_j69063074120430_2_alg».proof.Proof.Gen.Kernel.Skeleton
import proofs.«125931_j69063074120430_2_alg».proof.Proof.Gen.Kernel.Launch
import proofs.«125931_j69063074120430_2_alg».proof.Proof.Gen.Kernel.Points
import proofs.«125931_j69063074120430_2_alg».proof.Proof.Gen.Kernel.Frame
import proofs.«125931_j69063074120430_2_alg».proof.Proof.Gen.KernelIdeal
import proofs.«125931_j69063074120430_2_alg».proof.Proof.Gen.KernelIdeal.Skeleton
import proofs.«125931_j69063074120430_2_alg».proof.Proof.Gen.KernelIdeal.Launch
import proofs.«125931_j69063074120430_2_alg».proof.Proof.Gen.KernelIdeal.Points
import proofs.«125931_j69063074120430_2_alg».proof.Proof.Gen.KernelIdeal.Frame
import proofs.«125931_j69063074120430_2_alg».proof.Proof.Gen.ReferenceIdeal
import proofs.«125931_j69063074120430_2_alg».proof.Proof.Gen.Pre_finite_inputs
import proofs.«125931_j69063074120430_2_alg».proof.Proof.Gen.KernelIdeal.Value
import proofs.«125931_j69063074120430_2_alg».proof.Proof.Gen.ReferenceIdeal.Run
import proofs.«125931_j69063074120430_2_alg».proof.Proof.Gen.ReferenceIdeal.Read
import proofs.«125931_j69063074120430_2_alg».proof.Proof.Bridge
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with one result array: the kernel's run ends at the
    Gram-first output, the reference's at the scores-first output of the same arguments, and under the precondition
    these are one array. -/
theorem algebraic : Cert.algebraic_KernelIdeal_ReferenceIdeal := by
  intro m ρ m' ρ' hpre hagree
  refine ⟨fun c => Cert.KernelIdeal.KerValue.arrayOut m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ((Cert.ReferenceIdeal.Read.val_main_v12_eq _ _ _ _).trans
    (Cert.ReferenceIdeal.RefValue.result_eq_scoresOut _ _ _ _)).trans (Cert.Bridge.arrayOut_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
